-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x256 : Shape := ⟨2, ![512, 256]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S1024x512 .f32) (main_arg1 : FVec F S512x256 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S1024x512 : Shape := ⟨2, ![1024, 512]⟩
abbrev S512x256 : Shape := ⟨2, ![512, 256]⟩
abbrev S1024x256 : Shape := ⟨2, ![1024, 256]⟩
abbrev S128x512 : Shape := ⟨2, ![128, 512]⟩
abbrev S128x256 : Shape := ⟨2, ![128, 256]⟩
abbrev S128x8 : Shape := ⟨2, ![128, 8]⟩
abbrev S8x256 : Shape := ⟨2, ![8, 256]⟩
abbrev S128x8x1 : Shape := ⟨3, ![128, 8, 1]⟩
abbrev S1x8x256 : Shape := ⟨3, ![1, 8, 256]⟩
abbrev S128x8x256 : Shape := ⟨3, ![128, 8, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x256, .f32⟩
  | .hbm, ⟨2, _⟩ => ⟨S1024x256, .f32⟩
  | .local _ .vmem, ⟨0, _⟩ => ⟨S128x512, .f32⟩
  | .local _ .vmem, ⟨1, _⟩ => ⟨S128x512, .f32⟩
  | .local _ .vmem, ⟨2, _⟩ => ⟨S512x256, .f32⟩
  | .local _ .vmem, ⟨3, _⟩ => ⟨S128x256, .f32⟩
  | .local _ .vmem, ⟨4, _⟩ => ⟨S128x256, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x512_S128x512_0_0 : ∀ a, (![0, 0] : Fin 2 → Nat) a + S128x512.size a ≤ S128x512.size a
  h_S128x512 : 0 < S128x512.numel
  inb_S512x256_S512x256_0_0 : ∀ a, (![0, 0] : Fin 2 → Nat) a + S512x256.size a ≤ S512x256.size a
  h_S512x256 : 0 < S512x256.numel
  slices_S128x512_o0_0_S128x8 : S128x512.Slices ![0, 0] S128x8
  slices_S512x256_o0_0_S8x256 : S512x256.Slices ![0, 0] S8x256
  shapeCasts_S128x8_S128x8x1 : S128x8.ShapeCasts S128x8x1
  shapeCasts_S8x256_S1x8x256 : S8x256.ShapeCasts S1x8x256
  broadcasts_S128x8x1_S128x8x256 : S128x8x1.Broadcasts S128x8x256
  broadcasts_S1x8x256_S128x8x256 : S1x8x256.Broadcasts S128x8x256
  reduces_S128x8x256_S128x256 : S128x8x256.Reduces [1] S128x256
  slices_S128x512_o0_8_S128x8 : S128x512.Slices ![0, 8] S128x8
  slices_S512x256_o8_0_S8x256 : S512x256.Slices ![8, 0] S8x256
  slices_S128x512_o0_16_S128x8 : S128x512.Slices ![0, 16] S128x8
  slices_S512x256_o16_0_S8x256 : S512x256.Slices ![16, 0] S8x256
  slices_S128x512_o0_24_S128x8 : S128x512.Slices ![0, 24] S128x8
  slices_S512x256_o24_0_S8x256 : S512x256.Slices ![24, 0] S8x256
  slices_S128x512_o0_32_S128x8 : S128x512.Slices ![0, 32] S128x8
  slices_S512x256_o32_0_S8x256 : S512x256.Slices ![32, 0] S8x256
  slices_S128x512_o0_40_S128x8 : S128x512.Slices ![0, 40] S128x8
  slices_S512x256_o40_0_S8x256 : S512x256.Slices ![40, 0] S8x256
  slices_S128x512_o0_48_S128x8 : S128x512.Slices ![0, 48] S128x8
  slices_S512x256_o48_0_S8x256 : S512x256.Slices ![48, 0] S8x256
  slices_S128x512_o0_56_S128x8 : S128x512.Slices ![0, 56] S128x8
  slices_S512x256_o56_0_S8x256 : S512x256.Slices ![56, 0] S8x256
  slices_S128x512_o0_64_S128x8 : S128x512.Slices ![0, 64] S128x8
  slices_S512x256_o64_0_S8x256 : S512x256.Slices ![64, 0] S8x256
  slices_S128x512_o0_72_S128x8 : S128x512.Slices ![0, 72] S128x8
  slices_S512x256_o72_0_S8x256 : S512x256.Slices ![72, 0] S8x256
  slices_S128x512_o0_80_S128x8 : S128x512.Slices ![0, 80] S128x8
  slices_S512x256_o80_0_S8x256 : S512x256.Slices ![80, 0] S8x256
  slices_S128x512_o0_88_S128x8 : S128x512.Slices ![0, 88] S128x8
  slices_S512x256_o88_0_S8x256 : S512x256.Slices ![88, 0] S8x256
  slices_S128x512_o0_96_S128x8 : S128x512.Slices ![0, 96] S128x8
  slices_S512x256_o96_0_S8x256 : S512x256.Slices ![96, 0] S8x256
  slices_S128x512_o0_104_S128x8 : S128x512.Slices ![0, 104] S128x8
  slices_S512x256_o104_0_S8x256 : S512x256.Slices ![104, 0] S8x256
  slices_S128x512_o0_112_S128x8 : S128x512.Slices ![0, 112] S128x8
  slices_S512x256_o112_0_S8x256 : S512x256.Slices ![112, 0] S8x256
  slices_S128x512_o0_120_S128x8 : S128x512.Slices ![0, 120] S128x8
  slices_S512x256_o120_0_S8x256 : S512x256.Slices ![120, 0] S8x256
  slices_S128x512_o0_128_S128x8 : S128x512.Slices ![0, 128] S128x8
  slices_S512x256_o128_0_S8x256 : S512x256.Slices ![128, 0] S8x256
  slices_S128x512_o0_136_S128x8 : S128x512.Slices ![0, 136] S128x8
  slices_S512x256_o136_0_S8x256 : S512x256.Slices ![136, 0] S8x256
  slices_S128x512_o0_144_S128x8 : S128x512.Slices ![0, 144] S128x8
  slices_S512x256_o144_0_S8x256 : S512x256.Slices ![144, 0] S8x256
  slices_S128x512_o0_152_S128x8 : S128x512.Slices ![0, 152] S128x8
  slices_S512x256_o152_0_S8x256 : S512x256.Slices ![152, 0] S8x256
  slices_S128x512_o0_160_S128x8 : S128x512.Slices ![0, 160] S128x8
  slices_S512x256_o160_0_S8x256 : S512x256.Slices ![160, 0] S8x256
  slices_S128x512_o0_168_S128x8 : S128x512.Slices ![0, 168] S128x8
  slices_S512x256_o168_0_S8x256 : S512x256.Slices ![168, 0] S8x256
  slices_S128x512_o0_176_S128x8 : S128x512.Slices ![0, 176] S128x8
  slices_S512x256_o176_0_S8x256 : S512x256.Slices ![176, 0] S8x256
  slices_S128x512_o0_184_S128x8 : S128x512.Slices ![0, 184] S128x8
  slices_S512x256_o184_0_S8x256 : S512x256.Slices ![184, 0] S8x256
  slices_S128x512_o0_192_S128x8 : S128x512.Slices ![0, 192] S128x8
  slices_S512x256_o192_0_S8x256 : S512x256.Slices ![192, 0] S8x256
  slices_S128x512_o0_200_S128x8 : S128x512.Slices ![0, 200] S128x8
  slices_S512x256_o200_0_S8x256 : S512x256.Slices ![200, 0] S8x256
  slices_S128x512_o0_208_S128x8 : S128x512.Slices ![0, 208] S128x8
  slices_S512x256_o208_0_S8x256 : S512x256.Slices ![208, 0] S8x256
  slices_S128x512_o0_216_S128x8 : S128x512.Slices ![0, 216] S128x8
  slices_S512x256_o216_0_S8x256 : S512x256.Slices ![216, 0] S8x256
  slices_S128x512_o0_224_S128x8 : S128x512.Slices ![0, 224] S128x8
  slices_S512x256_o224_0_S8x256 : S512x256.Slices ![224, 0] S8x256
  slices_S128x512_o0_232_S128x8 : S128x512.Slices ![0, 232] S128x8
  slices_S512x256_o232_0_S8x256 : S512x256.Slices ![232, 0] S8x256
  slices_S128x512_o0_240_S128x8 : S128x512.Slices ![0, 240] S128x8
  slices_S512x256_o240_0_S8x256 : S512x256.Slices ![240, 0] S8x256
  slices_S128x512_o0_248_S128x8 : S128x512.Slices ![0, 248] S128x8
  slices_S512x256_o248_0_S8x256 : S512x256.Slices ![248, 0] S8x256
  slices_S128x512_o0_256_S128x8 : S128x512.Slices ![0, 256] S128x8
  slices_S512x256_o256_0_S8x256 : S512x256.Slices ![256, 0] S8x256
  slices_S128x512_o0_264_S128x8 : S128x512.Slices ![0, 264] S128x8
  slices_S512x256_o264_0_S8x256 : S512x256.Slices ![264, 0] S8x256
  slices_S128x512_o0_272_S128x8 : S128x512.Slices ![0, 272] S128x8
  slices_S512x256_o272_0_S8x256 : S512x256.Slices ![272, 0] S8x256
  slices_S128x512_o0_280_S128x8 : S128x512.Slices ![0, 280] S128x8
  slices_S512x256_o280_0_S8x256 : S512x256.Slices ![280, 0] S8x256
  slices_S128x512_o0_288_S128x8 : S128x512.Slices ![0, 288] S128x8
  slices_S512x256_o288_0_S8x256 : S512x256.Slices ![288, 0] S8x256
  slices_S128x512_o0_296_S128x8 : S128x512.Slices ![0, 296] S128x8
  slices_S512x256_o296_0_S8x256 : S512x256.Slices ![296, 0] S8x256
  slices_S128x512_o0_304_S128x8 : S128x512.Slices ![0, 304] S128x8
  slices_S512x256_o304_0_S8x256 : S512x256.Slices ![304, 0] S8x256
  slices_S128x512_o0_312_S128x8 : S128x512.Slices ![0, 312] S128x8
  slices_S512x256_o312_0_S8x256 : S512x256.Slices ![312, 0] S8x256
  slices_S128x512_o0_320_S128x8 : S128x512.Slices ![0, 320] S128x8
  slices_S512x256_o320_0_S8x256 : S512x256.Slices ![320, 0] S8x256
  slices_S128x512_o0_328_S128x8 : S128x512.Slices ![0, 328] S128x8
  slices_S512x256_o328_0_S8x256 : S512x256.Slices ![328, 0] S8x256
  slices_S128x512_o0_336_S128x8 : S128x512.Slices ![0, 336] S128x8
  slices_S512x256_o336_0_S8x256 : S512x256.Slices ![336, 0] S8x256
  slices_S128x512_o0_344_S128x8 : S128x512.Slices ![0, 344] S128x8
  slices_S512x256_o344_0_S8x256 : S512x256.Slices ![344, 0] S8x256
  slices_S128x512_o0_352_S128x8 : S128x512.Slices ![0, 352] S128x8
  slices_S512x256_o352_0_S8x256 : S512x256.Slices ![352, 0] S8x256
  slices_S128x512_o0_360_S128x8 : S128x512.Slices ![0, 360] S128x8
  slices_S512x256_o360_0_S8x256 : S512x256.Slices ![360, 0] S8x256
  slices_S128x512_o0_368_S128x8 : S128x512.Slices ![0, 368] S128x8
  slices_S512x256_o368_0_S8x256 : S512x256.Slices ![368, 0] S8x256
  slices_S128x512_o0_376_S128x8 : S128x512.Slices ![0, 376] S128x8
  slices_S512x256_o376_0_S8x256 : S512x256.Slices ![376, 0] S8x256
  slices_S128x512_o0_384_S128x8 : S128x512.Slices ![0, 384] S128x8
  slices_S512x256_o384_0_S8x256 : S512x256.Slices ![384, 0] S8x256
  slices_S128x512_o0_392_S128x8 : S128x512.Slices ![0, 392] S128x8
  slices_S512x256_o392_0_S8x256 : S512x256.Slices ![392, 0] S8x256
  slices_S128x512_o0_400_S128x8 : S128x512.Slices ![0, 400] S128x8
  slices_S512x256_o400_0_S8x256 : S512x256.Slices ![400, 0] S8x256
  slices_S128x512_o0_408_S128x8 : S128x512.Slices ![0, 408] S128x8
  slices_S512x256_o408_0_S8x256 : S512x256.Slices ![408, 0] S8x256
  slices_S128x512_o0_416_S128x8 : S128x512.Slices ![0, 416] S128x8
  slices_S512x256_o416_0_S8x256 : S512x256.Slices ![416, 0] S8x256
  slices_S128x512_o0_424_S128x8 : S128x512.Slices ![0, 424] S128x8
  slices_S512x256_o424_0_S8x256 : S512x256.Slices ![424, 0] S8x256
  slices_S128x512_o0_432_S128x8 : S128x512.Slices ![0, 432] S128x8
  slices_S512x256_o432_0_S8x256 : S512x256.Slices ![432, 0] S8x256
  slices_S128x512_o0_440_S128x8 : S128x512.Slices ![0, 440] S128x8
  slices_S512x256_o440_0_S8x256 : S512x256.Slices ![440, 0] S8x256
  slices_S128x512_o0_448_S128x8 : S128x512.Slices ![0, 448] S128x8
  slices_S512x256_o448_0_S8x256 : S512x256.Slices ![448, 0] S8x256
  slices_S128x512_o0_456_S128x8 : S128x512.Slices ![0, 456] S128x8
  slices_S512x256_o456_0_S8x256 : S512x256.Slices ![456, 0] S8x256
  slices_S128x512_o0_464_S128x8 : S128x512.Slices ![0, 464] S128x8
  slices_S512x256_o464_0_S8x256 : S512x256.Slices ![464, 0] S8x256
  slices_S128x512_o0_472_S128x8 : S128x512.Slices ![0, 472] S128x8
  slices_S512x256_o472_0_S8x256 : S512x256.Slices ![472, 0] S8x256
  slices_S128x512_o0_480_S128x8 : S128x512.Slices ![0, 480] S128x8
  slices_S512x256_o480_0_S8x256 : S512x256.Slices ![480, 0] S8x256
  slices_S128x512_o0_488_S128x8 : S128x512.Slices ![0, 488] S128x8
  slices_S512x256_o488_0_S8x256 : S512x256.Slices ![488, 0] S8x256
  slices_S128x512_o0_496_S128x8 : S128x512.Slices ![0, 496] S128x8
  slices_S512x256_o496_0_S8x256 : S512x256.Slices ![496, 0] S8x256
  slices_S128x512_o0_504_S128x8 : S128x512.Slices ![0, 504] S128x8
  slices_S512x256_o504_0_S8x256 : S512x256.Slices ![504, 0] S8x256
  inb_S128x256_S128x256_0_0 : ∀ a, (![0, 0] : Fin 2 → Nat) a + S128x256.size a ≤ S128x256.size a
  h_S128x256 : 0 < S128x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S1024x256.size a
  hwx0_2 : ∀ i : grid0.Coords, EltTy.bits .f32 = 32 ∨ (Rect.block (s := S1024x256) S128x256.size (cc0_transform_2 i) (hinb0_2 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x256 : Shape := ⟨2, ![512, 256]⟩
abbrev S_ : Shape := ⟨0, ![]⟩
abbrev S1024x512x1 : Shape := ⟨3, ![1024, 512, 1]⟩
abbrev S1x512x256 : Shape := ⟨3, ![1, 512, 256]⟩
abbrev S1024x512x256 : Shape := ⟨3, ![1024, 512, 256]⟩
abbrev S1024x256 : Shape := ⟨2, ![1024, 256]⟩

abbrev nBuf : Space → Nat
  | .hbm => 17
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S1024x512x1, .f32⟩
  | .hbm, ⟨11, _⟩ => ⟨S1x512x256, .f32⟩
  | .hbm, ⟨12, _⟩ => ⟨S1024x512x256, .f32⟩
  | .hbm, ⟨13, _⟩ => ⟨S1024x512x256, .f32⟩
  | .hbm, ⟨14, _⟩ => ⟨S1024x512x256, .f32⟩
  | .hbm, ⟨15, _⟩ => ⟨S_, .f32⟩
  | .hbm, ⟨16, _⟩ => ⟨S1024x256, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S1024x512_S1024x512x1_0_1 : S1024x512.BroadcastsInDim S1024x512x1 (![0, 1] : Fin 2 → Fin S1024x512x1.rank)
  bcast_S512x256_S1x512x256_1_2 : S512x256.BroadcastsInDim S1x512x256 (![1, 2] : Fin 2 → Fin S1x512x256.rank)
  bcast_S1024x512x1_S1024x512x256_0_1_2 : S1024x512x1.BroadcastsInDim S1024x512x256 (![0, 1, 2] : Fin 3 → Fin S1024x512x256.rank)
  bcast_S1x512x256_S1024x512x256_0_1_2 : S1x512x256.BroadcastsInDim S1024x512x256 (![0, 1, 2] : Fin 3 → Fin S1024x512x256.rank)
  reducesTo_S1024x512x256_S1024x256_d1 : S1024x512x256.ReducesTo [1] S1024x256
  h_S_ : 0 < S_.numel

variable [Facts₀]

class Facts : Prop extends Facts₀ where

variable [Facts]
-- ==== Proof.LibMaxChunks.lean ====
/-
  A running maximum taken in chunks, over any linear order and from any seed.

  `upTo b g n` is the maximum of the seed `b` and `g 0, …, g (n - 1)`. Three facts: a maximum over all of `Fin n` read
  through the coordinates' values is `upTo b g n`; joining to `upTo b g n` the maximum, from the same seed, of the next `c`
  terms gives `upTo b g (n + c)`; and the first chunk alone is `upTo b g c`. They hold because `max` is associative,
  commutative and idempotent: neither the grouping of the terms nor the repetition of the seed changes the result, so no
  property of the seed (such as being the least element) is used.
-/
import Mathlib.Data.Finset.Fold
import Mathlib.Data.Finset.Range
import Mathlib.Data.Fintype.Basic

namespace Cert.MaxChunks

variable {α : Type*} [LinearOrder α]

/-- The maximum of the seed `b` and `g 0, …, g (n - 1)`. -/
def upTo (b : α) (g : ℕ → α) (n : ℕ) : α := (Finset.range n).fold max b g

/-- A maximum over all of `Fin n`, each coordinate read through its value, is the running maximum over the first `n`
    naturals: the two index sets carry the same terms. -/
theorem fold_univ_eq_upTo (b : α) (g : ℕ → α) (n : ℕ) :
    (Finset.univ : Finset (Fin n)).fold max b (fun k => g k.val) = upTo b g n := by
  unfold upTo
  refine le_antisymm ?_ ?_
  · rw [Finset.fold_max_le]
    exact ⟨(Finset.le_fold_max _).2 (Or.inl le_rfl),
      fun k _ => (Finset.le_fold_max _).2 (Or.inr ⟨k.val, Finset.mem_range.2 k.isLt, le_rfl⟩)⟩
  · rw [Finset.fold_max_le]
    exact ⟨(Finset.le_fold_max _).2 (Or.inl le_rfl),
      fun i hi => (Finset.le_fold_max _).2 (Or.inr ⟨⟨i, Finset.mem_range.1 hi⟩, Finset.mem_univ _, le_rfl⟩)⟩

/-- THE CHUNK STEP: the maximum of the running maximum over the first `n` terms and of the next `c` terms' own maximum
    (from the same seed) is the running maximum over the first `n + c` terms. Each side is an upper bound of exactly the
    seed and the terms `g i`, `i < n + c`; a term with `n ≤ i` is the chunk's term number `i - n`. -/
theorem upTo_add (b : α) (g : ℕ → α) (n c : ℕ) :
    max (upTo b g n) ((Finset.univ : Finset (Fin c)).fold max b (fun k => g (n + k.val))) = upTo b g (n + c) := by
  unfold upTo
  refine le_antisymm (max_le ?_ ?_) ?_
  · rw [Finset.fold_max_le]
    exact ⟨(Finset.le_fold_max _).2 (Or.inl le_rfl), fun i hi => (Finset.le_fold_max _).2
      (Or.inr ⟨i, Finset.mem_range.2 (by have := Finset.mem_range.1 hi; omega), le_rfl⟩)⟩
  · rw [Finset.fold_max_le]
    exact ⟨(Finset.le_fold_max _).2 (Or.inl le_rfl), fun k _ => (Finset.le_fold_max _).2
      (Or.inr ⟨n + k.val, Finset.mem_range.2 (by have := k.isLt; omega), le_rfl⟩)⟩
  · rw [Finset.fold_max_le]
    refine ⟨le_max_of_le_left ((Finset.le_fold_max _).2 (Or.inl le_rfl)), fun i hi => ?_⟩
    have hi' := Finset.mem_range.1 hi
    rcases Nat.lt_or_ge i n with h | h
    · exact le_max_of_le_left ((Finset.le_fold_max _).2 (Or.inr ⟨i, Finset.mem_range.2 h, le_rfl⟩))
    · refine le_max_of_le_right ((Finset.le_fold_max _).2 (Or.inr ⟨⟨i - n, by omega⟩, Finset.mem_univ _, ?_⟩))
      show g i ≤ g (n + (i - n))
      rw [Nat.add_sub_of_le h]

/-- The first chunk alone, its terms numbered from `0`, is the running maximum over its own length. -/
theorem first_chunk (b : α) (g : ℕ → α) (c : ℕ) :
    (Finset.univ : Finset (Fin c)).fold max b (fun k => g (0 + k.val)) = upTo b g c := by
  simp only [Nat.zero_add]
  exact fold_univ_eq_upTo b g c

end Cert.MaxChunks
-- ==== Proof.LibCasts.lean ====
/-
  Reads at an index of four small layout operations on arrays of rank 2 and 3, over literal coordinates:
  a unit axis inserted last (`[a, b] → [a, b, 1]`) or in the middle (`[a, c] → [a, 1, c]`) keeps the row-major
  position of every element, so the cast reads the operand at the remaining coordinates; and a broadcast along
  a unit axis (`[a, b, 1] → [a, b, c]`, `[a, 1, c] → [a, b, c]`) reads the operand at `0` on that axis.
-/
import Idealize.ShloMosaic.Lib.Pipeline.Value
import Idealize.ShloMosaic.Lib.ValueIdx

noncomputable section

namespace Cert.Dispatch.Casts

open Idealize.ShloMosaic Idealize.ShloMosaic.ValueIdx

variable {α : Type}

/-- An `[a, b]` array cast to `[a, b, 1]` reads, at `(i, j, u)`, the operand at `(i, j)`:
    `(i·b + j)·1 + u = i·b + j` since `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, j)`, the operand at `(i, j)`:
    `(i·1 + u)·c + j = i·c + j` since `u = 0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

end Cert.Dispatch.Casts

end
-- ==== Proof.LibMinMaxChunk.lean ====
/-
  One chunk of a max–min ("tropical") matrix product, read at an index, at the ideal values.

  For a matrix `x : [A, K]` and a matrix `w : [K, B]` the product's entry `(p, q)` is the maximum over `i < K` of
  `min (x[p, i]) (w[i, q])`; `term x w p q i` names that `i`-th term. A chunk of `C` consecutive values of `i` from the offset
  `o` is computed by cutting `C` columns of `x` and `C` rows of `w`, giving the first a trailing and the second a leading unit
  axis, broadcasting both to `[A, C, B]`, taking the minimum and reducing the middle axis by `max` from the seed `-∞`. Read at
  `(p, q)` this is the maximum, from that seed, over `k < C` of `term x w p q (o + k)` (`chunkMax_apply`): each layout operation
  keeps or drops a coordinate (`pairMin_apply`), and the reduction over one axis is the fold of `max` over that axis's
  coordinates (`reduceMid_apply`).
-/
import Idealize.ShloMosaic.Lib.Pipeline.Value
import Idealize.ShloMosaic.Lib.ValueIdx
import Idealize.ShloMosaic.Lib.ValueLayout
import Idealize.ShloMosaic.PureOps.Ideal.Laws
import proofs.«151114_j56281251447399_2_alg».proof.Proof.LibCasts

noncomputable section

namespace Cert.MinMaxChunk

open Idealize.ShloMosaic Idealize.ShloMosaic.ValueIdx Cert.Dispatch.Casts

/-- A `[1, b, c]` array broadcast to `[a, b, c]` reads, at `(i, j, l)`, the operand at `(0, j, l)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

/-- The `i`-th term of the max–min product's entry `(p, q)`: `min (x[p, i]) (w[i, q])`. Past the contracted extent it is
    `⊥`, a value no statement below ever reads. -/
def term {A K B : ℕ} (x : FVec Ideal ⟨2, ![A, K]⟩ .f32) (w : FVec Ideal ⟨2, ![K, B]⟩ .f32) (p : Fin A) (q : Fin B)
    (i : ℕ) : EReal :=
  if h : i < K then min (x (ix2 p ⟨i, h⟩) : EReal) (w (ix2 ⟨i, h⟩ q)) else ⊥

/-- Inside the contracted extent the term is the minimum of the two entries. -/
theorem term_of_lt {A K B : ℕ} (x : FVec Ideal ⟨2, ![A, K]⟩ .f32) (w : FVec Ideal ⟨2, ![K, B]⟩ .f32) (p : Fin A) (q : Fin B)
    (i : Fin K) : term x w p q i.val = min (x (ix2 p i) : EReal) (w (ix2 i q)) := by
  unfold term
  rw [dif_pos i.isLt]

/-- THE CHUNK'S MINIMA AT `(p, k, q)`: `C` columns of `x` from `o`, as `[A, C, 1]`, and `C` rows of `w` from `o`, as
    `[1, C, B]`, both broadcast to `[A, C, B]`; their minimum at `(p, k, q)` is `min (x[p, o + k]) (w[o + k, q])`. -/
theorem pairMin_apply {A K B C : ℕ} (x : FVec Ideal ⟨2, ![A, K]⟩ .f32) (w : FVec Ideal ⟨2, ![K, B]⟩ .f32) (o : ℕ)
    (ho : o + C ≤ K)
    (hs1 : (⟨2, ![A, K]⟩ : Shape).Slices ![0, o] ⟨2, ![A, C]⟩) (hs2 : (⟨2, ![K, B]⟩ : Shape).Slices ![o, 0] ⟨2, ![C, B]⟩)
    (hc1 : (⟨2, ![A, C]⟩ : Shape).ShapeCasts ⟨3, ![A, C, 1]⟩) (hc2 : (⟨2, ![C, B]⟩ : Shape).ShapeCasts ⟨3, ![1, C, B]⟩)
    (hb1 : (⟨3, ![A, C, 1]⟩ : Shape).Broadcasts ⟨3, ![A, C, B]⟩) (hb2 : (⟨3, ![1, C, B]⟩ : Shape).Broadcasts ⟨3, ![A, C, B]⟩)
    (p : Fin A) (k : Fin C) (q : Fin B) :
    minimumf (broadcastTo ⟨3, ![A, C, B]⟩ (shapeCast ⟨3, ![A, C, 1]⟩ (extractStridedSlice ⟨2, ![A, C]⟩ ![0, o] x hs1) hc1) hb1)
        (broadcastTo ⟨3, ![A, C, B]⟩ (shapeCast ⟨3, ![1, C, B]⟩ (extractStridedSlice ⟨2, ![C, B]⟩ ![o, 0] w hs2) hc2) hb2)
        (ix3 p k q)
      = term x w p q (o + k.val) := by
  have hk : o + k.val < K := by have := k.isLt; omega
  rw [minimumf_apply, broadcastTo_ab1_abc_apply, shapeCast_ab_ab1_apply, broadcastTo_1bc_abc_apply, shapeCast_ab_1ab_apply,
    slice2_axis1_apply o x hs1 p k ⟨o + k.val, hk⟩ rfl, slice2_axis0_apply o w hs2 k q ⟨o + k.val, hk⟩ rfl]
  exact (term_of_lt x w p q ⟨o + k.val, hk⟩).symm

/-- A `max`-reduction of an `[A, C, B]` array over its middle axis, from the seed `-∞`, reads at `(p, q)` the fold of `max`
    from that seed over the middle coordinate `k` of the array at `(p, k, q)`. -/
theorem reduceMid_apply {A C B : ℕ} (T : FVec Ideal ⟨3, ![A, C, B]⟩ .f32)
    (h : (⟨3, ![A, C, B]⟩ : Shape).Reduces [1] ⟨2, ![A, B]⟩) (hφ : FKind.Formats .f32)
    (hacc : (0xFF800000#32 : BitVec 32) = FKind.maximumf.neutral .f32 hφ) (p : Fin A) (q : Fin B) :
    multiReduction .maximumf [1] ⟨2, ![A, B]⟩ T 0xFF800000#32 h hφ hacc (ix2 p q)
      = (Finset.univ : Finset (Fin C)).fold max (Ideal.ofBits .f32 0xFF800000#32) (fun k => T (ix3 p k q)) := by
  refine (Ideal.multiReduction_maximumf_single T _ h hφ hacc (ix2 p q)).trans ?_
  refine congrArg (fun f => (Finset.univ : Finset (Fin C)).fold max (Ideal.ofBits .f32 0xFF800000#32) f)
    (funext fun k => congrArg T ?_)
  funext ax
  match ax with
  | ⟨0, _⟩ => rfl
  | ⟨1, _⟩ => rfl
  | ⟨2, _⟩ => rfl

/-- THE CHUNK AT `(p, q)`: the maximum, from the seed `-∞`, over `k < C` of the product's terms `o + k`. -/
theorem chunkMax_apply {A K B C : ℕ} (x : FVec Ideal ⟨2, ![A, K]⟩ .f32) (w : FVec Ideal ⟨2, ![K, B]⟩ .f32) (o : ℕ)
    (ho : o + C ≤ K)
    (hs1 : (⟨2, ![A, K]⟩ : Shape).Slices ![0, o] ⟨2, ![A, C]⟩) (hs2 : (⟨2, ![K, B]⟩ : Shape).Slices ![o, 0] ⟨2, ![C, B]⟩)
    (hc1 : (⟨2, ![A, C]⟩ : Shape).ShapeCasts ⟨3, ![A, C, 1]⟩) (hc2 : (⟨2, ![C, B]⟩ : Shape).ShapeCasts ⟨3, ![1, C, B]⟩)
    (hb1 : (⟨3, ![A, C, 1]⟩ : Shape).Broadcasts ⟨3, ![A, C, B]⟩) (hb2 : (⟨3, ![1, C, B]⟩ : Shape).Broadcasts ⟨3, ![A, C, B]⟩)
    (h : (⟨3, ![A, C, B]⟩ : Shape).Reduces [1] ⟨2, ![A, B]⟩) (hφ : FKind.Formats .f32)
    (hacc : (0xFF800000#32 : BitVec 32) = FKind.maximumf.neutral .f32 hφ) (p : Fin A) (q : Fin B) :
    multiReduction .maximumf [1] ⟨2, ![A, B]⟩
        (minimumf (broadcastTo ⟨3, ![A, C, B]⟩ (shapeCast ⟨3, ![A, C, 1]⟩ (extractStridedSlice ⟨2, ![A, C]⟩ ![0, o] x hs1) hc1) hb1)
          (broadcastTo ⟨3, ![A, C, B]⟩ (shapeCast ⟨3, ![1, C, B]⟩ (extractStridedSlice ⟨2, ![C, B]⟩ ![o, 0] w hs2) hc2) hb2))
        0xFF800000#32 h hφ hacc (ix2 p q)
      = (Finset.univ : Finset (Fin C)).fold max (Ideal.ofBits .f32 0xFF800000#32) (fun k => term x w p q (o + k.val)) :=
  (reduceMid_apply _ h hφ hacc p q).trans
    (congrArg (fun f => (Finset.univ : Finset (Fin C)).fold max (Ideal.ofBits .f32 0xFF800000#32) f)
      (funext fun k => pairMin_apply x w o ho hs1 hs2 hc1 hc2 hb1 hb2 p k q))

end Cert.MinMaxChunk

end
-- ==== Proof.BodyValue.lean ====
/-
  What the kernel body computes, read at one entry of its output block.

  The body keeps a running maximum: it starts from the chunk of the first eight terms of the max–min product and joins one
  chunk of eight terms after another, sixty-four chunks in all. Its arithmetic is printed as a chain of pieces: an
  odd-numbered piece carries the running maximum on, an even-numbered piece is the array of minima of the chunk that the
  next odd piece reduces first. At the entry `(p, q)` of the block every odd piece is the running maximum `U` over the
  terms read so far — 32, 80, 128, …, 464, 504 and finally all 512 — by the chunk step (the maximum of a running maximum
  and of the next chunk's own maximum is the running maximum eight terms further on), and so the whole body is the
  maximum over all `i < 512` of `min (x[p, i]) (w'[i, q])`, `w'` the clipped weight block (`body_at`).
-/
import proofs.«151114_j56281251447399_2_alg».proof.Proof.Gen.KernelIdeal.Skeleton
import proofs.«151114_j56281251447399_2_alg».proof.Proof.LibMaxChunks
import proofs.«151114_j56281251447399_2_alg».proof.Proof.LibMinMaxChunk

noncomputable section

namespace Cert.KernelIdeal.Body

open Cert.KernelIdeal Cert.KernelIdeal.Gen Idealize.ShloMosaic Idealize.ShloMosaic.ValueIdx
open Cert.MaxChunks Cert.MinMaxChunk

/-- The seed of every maximum in the body: the value of the f32 word of `-∞`. -/
abbrev seed : EReal := Ideal.ofBits .f32 0xFF800000#32

/-- The running maximum, from the seed, of the first `n` terms of the product's entry `(p, q)`. -/
abbrev U (x0 : FVec Ideal S128x512 .f32) (w : FVec Ideal S512x256 .f32) (p : Fin 128) (q : Fin 256) (n : ℕ) : EReal :=
  upTo seed (term x0 w p q) n

variable (x0 : FVec Ideal S128x512 .f32) (w : FVec Ideal S512x256 .f32) (p : Fin 128) (q : Fin 256)

/-- The chunk of eight terms from `o`, as the body computes it, at `(p, q)`: those terms' maximum from the seed. -/
theorem chunk_at (o : ℕ) (ho : o + 8 ≤ 512) (hs1 : S128x512.Slices ![0, o] S128x8) (hs2 : S512x256.Slices ![o, 0] S8x256) :
    multiReduction .maximumf [1] S128x256
        (minimumf (broadcastTo S128x8x256 (shapeCast S128x8x1 (extractStridedSlice S128x8 ![0, o] x0 hs1) shapeCasts_S128x8_S128x8x1) broadcasts_S128x8x1_S128x8x256)
          (broadcastTo S128x8x256 (shapeCast S1x8x256 (extractStridedSlice S8x256 ![o, 0] w hs2) shapeCasts_S8x256_S1x8x256) broadcasts_S1x8x256_S128x8x256))
        0xFF800000#32 reduces_S128x8x256_S128x256 (.inl rfl) rfl (ix2 p q)
      = (Finset.univ : Finset (Fin 8)).fold max seed (fun k => term x0 w p q (o + k.val)) :=
  chunkMax_apply x0 w o ho hs1 hs2 _ _ _ _ _ _ _ p q

/-- A carried array of minima `T` that holds the terms `n + k` reduces, at `(p, q)`, to those terms' maximum from the seed. -/
theorem red_at (T : FVec Ideal S128x8x256 .f32) (n : ℕ) (hT : ∀ k : Fin 8, T (ix3 p k q) = term x0 w p q (n + k.val)) :
    multiReduction .maximumf [1] S128x256 T 0xFF800000#32 reduces_S128x8x256_S128x256 (.inl rfl) rfl (ix2 p q)
      = (Finset.univ : Finset (Fin 8)).fold max seed (fun k => term x0 w p q (n + k.val)) :=
  (reduceMid_apply T _ _ _ p q).trans
    (congrArg (fun f => (Finset.univ : Finset (Fin 8)).fold max seed f) (funext hT))

/-- THE CHUNK STEP in the body's words: where `acc` is the running maximum over the first `n` terms and `R` the maximum of
    the next eight, their elementwise maximum is the running maximum over the first `n + 8`. -/
theorem join (acc R : FVec Ideal S128x256 .f32) (n : ℕ) (hacc : acc (ix2 p q) = U x0 w p q n)
    (hR : R (ix2 p q) = (Finset.univ : Finset (Fin 8)).fold max seed (fun k => term x0 w p q (n + k.val))) :
    maximumf acc R (ix2 p q) = U x0 w p q (n + 8) := by
  rw [maximumf_apply, hacc, hR]
  exact upTo_add seed (term x0 w p q) n 8

/-! ## The arrays of minima (the even pieces from 6 on): the chunk at their offset -/

theorem pay6_at (k : Fin 8) : k0_pay6 x0 w (ix3 p k q) = term x0 w p q (80 + k.val) := by
  unfold k0_pay6; exact pairMin_apply x0 w 80 (by decide) _ _ _ _ _ _ p k q
theorem pay8_at (k : Fin 8) : k0_pay8 x0 w (ix3 p k q) = term x0 w p q (128 + k.val) := by
  unfold k0_pay8; exact pairMin_apply x0 w 128 (by decide) _ _ _ _ _ _ p k q
theorem pay10_at (k : Fin 8) : k0_pay10 x0 w (ix3 p k q) = term x0 w p q (176 + k.val) := by
  unfold k0_pay10; exact pairMin_apply x0 w 176 (by decide) _ _ _ _ _ _ p k q
theorem pay12_at (k : Fin 8) : k0_pay12 x0 w (ix3 p k q) = term x0 w p q (224 + k.val) := by
  unfold k0_pay12; exact pairMin_apply x0 w 224 (by decide) _ _ _ _ _ _ p k q
theorem pay14_at (k : Fin 8) : k0_pay14 x0 w (ix3 p k q) = term x0 w p q (272 + k.val) := by
  unfold k0_pay14; exact pairMin_apply x0 w 272 (by decide) _ _ _ _ _ _ p k q
theorem pay16_at (k : Fin 8) : k0_pay16 x0 w (ix3 p k q) = term x0 w p q (320 + k.val) := by
  unfold k0_pay16; exact pairMin_apply x0 w 320 (by decide) _ _ _ _ _ _ p k q
theorem pay18_at (k : Fin 8) : k0_pay18 x0 w (ix3 p k q) = term x0 w p q (368 + k.val) := by
  unfold k0_pay18; exact pairMin_apply x0 w 368 (by decide) _ _ _ _ _ _ p k q
theorem pay20_at (k : Fin 8) : k0_pay20 x0 w (ix3 p k q) = term x0 w p q (416 + k.val) := by
  unfold k0_pay20; exact pairMin_apply x0 w 416 (by decide) _ _ _ _ _ _ p k q
theorem pay22_at (k : Fin 8) : k0_pay22 x0 w (ix3 p k q) = term x0 w p q (464 + k.val) := by
  unfold k0_pay22; exact pairMin_apply x0 w 464 (by decide) _ _ _ _ _ _ p k q
theorem pay24_at (k : Fin 8) : k0_pay24 x0 w (ix3 p k q) = term x0 w p q (504 + k.val) := by
  unfold k0_pay24; exact pairMin_apply x0 w 504 (by decide) _ _ _ _ _ _ p k q

/-! ## The running maximum (the odd pieces from 5 on)

Each takes the running maximum over the first `n` terms and the array of minima of the chunk at `n`, reduces that chunk
and joins it, then computes and joins the chunks that follow. -/

theorem pay5_at (acc : FVec Ideal S128x256 .f32) (T : FVec Ideal S128x8x256 .f32)
    (hacc : acc (ix2 p q) = U x0 w p q 32) (hT : ∀ k : Fin 8, T (ix3 p k q) = term x0 w p q (32 + k.val)) :
    k0_pay5 x0 w acc T (ix2 p q) = U x0 w p q 80 := by
  unfold k0_pay5
  exact join x0 w p q _ _ 72 (join x0 w p q _ _ 64 (join x0 w p q _ _ 56 (join x0 w p q _ _ 48 (join x0 w p q _ _ 40
    (join x0 w p q acc _ 32 hacc (red_at x0 w p q T 32 hT))
    (chunk_at x0 w p q 40 (by decide) _ _)) (chunk_at x0 w p q 48 (by decide) _ _)) (chunk_at x0 w p q 56 (by decide) _ _))
    (chunk_at x0 w p q 64 (by decide) _ _)) (chunk_at x0 w p q 72 (by decide) _ _)

theorem pay7_at (acc : FVec Ideal S128x256 .f32) (T : FVec Ideal S128x8x256 .f32)
    (hacc : acc (ix2 p q) = U x0 w p q 80) (hT : ∀ k : Fin 8, T (ix3 p k q) = term x0 w p q (80 + k.val)) :
    k0_pay7 x0 w acc T (ix2 p q) = U x0 w p q 128 := by
  unfold k0_pay7
  exact join x0 w p q _ _ 120 (join x0 w p q _ _ 112 (join x0 w p q _ _ 104 (join x0 w p q _ _ 96 (join x0 w p q _ _ 88
    (join x0 w p q acc _ 80 hacc (red_at x0 w p q T 80 hT))
    (chunk_at x0 w p q 88 (by decide) _ _)) (chunk_at x0 w p q 96 (by decide) _ _)) (chunk_at x0 w p q 104 (by decide) _ _))
    (chunk_at x0 w p q 112 (by decide) _ _)) (chunk_at x0 w p q 120 (by decide) _ _)

theorem pay9_at (acc : FVec Ideal S128x256 .f32) (T : FVec Ideal S128x8x256 .f32)
    (hacc : acc (ix2 p q) = U x0 w p q 128) (hT : ∀ k : Fin 8, T (ix3 p k q) = term x0 w p q (128 + k.val)) :
    k0_pay9 x0 w acc T (ix2 p q) = U x0 w p q 176 := by
  unfold k0_pay9
  exact join x0 w p q _ _ 168 (join x0 w p q _ _ 160 (join x0 w p q _ _ 152 (join x0 w p q _ _ 144 (join x0 w p q _ _ 136
    (join x0 w p q acc _ 128 hacc (red_at x0 w p q T 128 hT))
    (chunk_at x0 w p q 136 (by decide) _ _)) (chunk_at x0 w p q 144 (by decide) _ _)) (chunk_at x0 w p q 152 (by decide) _ _))
    (chunk_at x0 w p q 160 (by decide) _ _)) (chunk_at x0 w p q 168 (by decide) _ _)

theorem pay11_at (acc : FVec Ideal S128x256 .f32) (T : FVec Ideal S128x8x256 .f32)
    (hacc : acc (ix2 p q) = U x0 w p q 176) (hT : ∀ k : Fin 8, T (ix3 p k q) = term x0 w p q (176 + k.val)) :
    k0_pay11 x0 w acc T (ix2 p q) = U x0 w p q 224 := by
  unfold k0_pay11
  exact join x0 w p q _ _ 216 (join x0 w p q _ _ 208 (join x0 w p q _ _ 200 (join x0 w p q _ _ 192 (join x0 w p q _ _ 184
    (join x0 w p q acc _ 176 hacc (red_at x0 w p q T 176 hT))
    (chunk_at x0 w p q 184 (by decide) _ _)) (chunk_at x0 w p q 192 (by decide) _ _)) (chunk_at x0 w p q 200 (by decide) _ _))
    (chunk_at x0 w p q 208 (by decide) _ _)) (chunk_at x0 w p q 216 (by decide) _ _)

theorem pay13_at (acc : FVec Ideal S128x256 .f32) (T : FVec Ideal S128x8x256 .f32)
    (hacc : acc (ix2 p q) = U x0 w p q 224) (hT : ∀ k : Fin 8, T (ix3 p k q) = term x0 w p q (224 + k.val)) :
    k0_pay13 x0 w acc T (ix2 p q) = U x0 w p q 272 := by
  unfold k0_pay13
  exact join x0 w p q _ _ 264 (join x0 w p q _ _ 256 (join x0 w p q _ _ 248 (join x0 w p q _ _ 240 (join x0 w p q _ _ 232
    (join x0 w p q acc _ 224 hacc (red_at x0 w p q T 224 hT))
    (chunk_at x0 w p q 232 (by decide) _ _)) (chunk_at x0 w p q 240 (by decide) _ _)) (chunk_at x0 w p q 248 (by decide) _ _))
    (chunk_at x0 w p q 256 (by decide) _ _)) (chunk_at x0 w p q 264 (by decide) _ _)

theorem pay15_at (acc : FVec Ideal S128x256 .f32) (T : FVec Ideal S128x8x256 .f32)
    (hacc : acc (ix2 p q) = U x0 w p q 272) (hT : ∀ k : Fin 8, T (ix3 p k q) = term x0 w p q (272 + k.val)) :
    k0_pay15 x0 w acc T (ix2 p q) = U x0 w p q 320 := by
  unfold k0_pay15
  exact join x0 w p q _ _ 312 (join x0 w p q _ _ 304 (join x0 w p q _ _ 296 (join x0 w p q _ _ 288 (join x0 w p q _ _ 280
    (join x0 w p q acc _ 272 hacc (red_at x0 w p q T 272 hT))
    (chunk_at x0 w p q 280 (by decide) _ _)) (chunk_at x0 w p q 288 (by decide) _ _)) (chunk_at x0 w p q 296 (by decide) _ _))
    (chunk_at x0 w p q 304 (by decide) _ _)) (chunk_at x0 w p q 312 (by decide) _ _)

theorem pay17_at (acc : FVec Ideal S128x256 .f32) (T : FVec Ideal S128x8x256 .f32)
    (hacc : acc (ix2 p q) = U x0 w p q 320) (hT : ∀ k : Fin 8, T (ix3 p k q) = term x0 w p q (320 + k.val)) :
    k0_pay17 x0 w acc T (ix2 p q) = U x0 w p q 368 := by
  unfold k0_pay17
  exact join x0 w p q _ _ 360 (join x0 w p q _ _ 352 (join x0 w p q _ _ 344 (join x0 w p q _ _ 336 (join x0 w p q _ _ 328
    (join x0 w p q acc _ 320 hacc (red_at x0 w p q T 320 hT))
    (chunk_at x0 w p q 328 (by decide) _ _)) (chunk_at x0 w p q 336 (by decide) _ _)) (chunk_at x0 w p q 344 (by decide) _ _))
    (chunk_at x0 w p q 352 (by decide) _ _)) (chunk_at x0 w p q 360 (by decide) _ _)

theorem pay19_at (acc : FVec Ideal S128x256 .f32) (T : FVec Ideal S128x8x256 .f32)
    (hacc : acc (ix2 p q) = U x0 w p q 368) (hT : ∀ k : Fin 8, T (ix3 p k q) = term x0 w p q (368 + k.val)) :
    k0_pay19 x0 w acc T (ix2 p q) = U x0 w p q 416 := by
  unfold k0_pay19
  exact join x0 w p q _ _ 408 (join x0 w p q _ _ 400 (join x0 w p q _ _ 392 (join x0 w p q _ _ 384 (join x0 w p q _ _ 376
    (join x0 w p q acc _ 368 hacc (red_at x0 w p q T 368 hT))
    (chunk_at x0 w p q 376 (by decide) _ _)) (chunk_at x0 w p q 384 (by decide) _ _)) (chunk_at x0 w p q 392 (by decide) _ _))
    (chunk_at x0 w p q 400 (by decide) _ _)) (chunk_at x0 w p q 408 (by decide) _ _)

theorem pay21_at (acc : FVec Ideal S128x256 .f32) (T : FVec Ideal S128x8x256 .f32)
    (hacc : acc (ix2 p q) = U x0 w p q 416) (hT : ∀ k : Fin 8, T (ix3 p k q) = term x0 w p q (416 + k.val)) :
    k0_pay21 x0 w acc T (ix2 p q) = U x0 w p q 464 := by
  unfold k0_pay21
  exact join x0 w p q _ _ 456 (join x0 w p q _ _ 448 (join x0 w p q _ _ 440 (join x0 w p q _ _ 432 (join x0 w p q _ _ 424
    (join x0 w p q acc _ 416 hacc (red_at x0 w p q T 416 hT))
    (chunk_at x0 w p q 424 (by decide) _ _)) (chunk_at x0 w p q 432 (by decide) _ _)) (chunk_at x0 w p q 440 (by decide) _ _))
    (chunk_at x0 w p q 448 (by decide) _ _)) (chunk_at x0 w p q 456 (by decide) _ _)

/-- The last-but-one running maximum: it reduces the chunk at 464 and joins the four chunks that follow. -/
theorem pay23_at (acc : FVec Ideal S128x256 .f32) (T : FVec Ideal S128x8x256 .f32)
    (hacc : acc (ix2 p q) = U x0 w p q 464) (hT : ∀ k : Fin 8, T (ix3 p k q) = term x0 w p q (464 + k.val)) :
    k0_pay23 x0 w acc T (ix2 p q) = U x0 w p q 504 := by
  unfold k0_pay23
  exact join x0 w p q _ _ 496 (join x0 w p q _ _ 488 (join x0 w p q _ _ 480 (join x0 w p q _ _ 472
    (join x0 w p q acc _ 464 hacc (red_at x0 w p q T 464 hT))
    (chunk_at x0 w p q 472 (by decide) _ _)) (chunk_at x0 w p q 480 (by decide) _ _)) (chunk_at x0 w p q 488 (by decide) _ _))
    (chunk_at x0 w p q 496 (by decide) _ _)

/-- The stored value: the last chunk, at 504, reduced and joined. -/
theorem pay1_at (acc : FVec Ideal S128x256 .f32) (T : FVec Ideal S128x8x256 .f32)
    (hacc : acc (ix2 p q) = U x0 w p q 504) (hT : ∀ k : Fin 8, T (ix3 p k q) = term x0 w p q (504 + k.val)) :
    k0_pay1 acc T (ix2 p q) = U x0 w p q 512 := by
  unfold k0_pay1
  exact join x0 w p q acc _ 504 hacc (red_at x0 w p q T 504 hT)

/-! ## The opening pieces, which clip the weight block themselves, and the whole chain -/

/-- Piece 3: the first four chunks (terms 0–31), over the weight block clipped by piece 2. The first chunk alone is the
    running maximum over its eight terms; the other three are joined to it. -/
theorem pay3_at (v1 : FVec Ideal S512x256 .f32) : k0_pay3 (F := Ideal) x0 v1 (ix2 p q) = U x0 (k0_pay2 v1) p q 32 := by
  unfold k0_pay3
  exact join x0 (k0_pay2 v1) p q _ _ 24 (join x0 (k0_pay2 v1) p q _ _ 16 (join x0 (k0_pay2 v1) p q _ _ 8
    ((chunk_at x0 (k0_pay2 v1) p q 0 (by decide) _ _).trans (first_chunk seed (term x0 (k0_pay2 v1) p q) 8))
    (chunk_at x0 (k0_pay2 v1) p q 8 (by decide) _ _)) (chunk_at x0 (k0_pay2 v1) p q 16 (by decide) _ _))
    (chunk_at x0 (k0_pay2 v1) p q 24 (by decide) _ _)

/-- Piece 4: the minima of the chunk at 32, over the clipped weight block. -/
theorem pay4_at (v1 : FVec Ideal S512x256 .f32) (k : Fin 8) :
    k0_pay4 (F := Ideal) x0 v1 (ix3 p k q) = term x0 (k0_pay2 v1) p q (32 + k.val) := by
  unfold k0_pay4; exact pairMin_apply x0 (k0_pay2 v1) 32 (by decide) _ _ _ _ _ _ p k q

/-- THE BODY'S STORED VALUE AT `(p, q)`: the pieces chained as the body chains them give the running maximum over all 512
    terms of the max–min product of the input block `x0` and the clipped weight block. -/
theorem body_at (v1 : FVec Ideal S512x256 .f32) :
    k0_pay1 (F := Ideal) (k0_pay23 x0 (k0_pay2 v1) (k0_pay21 x0 (k0_pay2 v1) (k0_pay19 x0 (k0_pay2 v1) (k0_pay17 x0 (k0_pay2 v1)
      (k0_pay15 x0 (k0_pay2 v1) (k0_pay13 x0 (k0_pay2 v1) (k0_pay11 x0 (k0_pay2 v1) (k0_pay9 x0 (k0_pay2 v1)
      (k0_pay7 x0 (k0_pay2 v1) (k0_pay5 x0 (k0_pay2 v1) (k0_pay3 x0 v1) (k0_pay4 x0 v1)) (k0_pay6 x0 (k0_pay2 v1)))
      (k0_pay8 x0 (k0_pay2 v1))) (k0_pay10 x0 (k0_pay2 v1))) (k0_pay12 x0 (k0_pay2 v1))) (k0_pay14 x0 (k0_pay2 v1)))
      (k0_pay16 x0 (k0_pay2 v1))) (k0_pay18 x0 (k0_pay2 v1))) (k0_pay20 x0 (k0_pay2 v1))) (k0_pay22 x0 (k0_pay2 v1)))
      (k0_pay24 x0 (k0_pay2 v1)) (ix2 p q)
      = U x0 (k0_pay2 v1) p q 512 :=
  pay1_at x0 (k0_pay2 v1) p q _ _
    (pay23_at x0 (k0_pay2 v1) p q _ _
      (pay21_at x0 (k0_pay2 v1) p q _ _
        (pay19_at x0 (k0_pay2 v1) p q _ _
          (pay17_at x0 (k0_pay2 v1) p q _ _
            (pay15_at x0 (k0_pay2 v1) p q _ _
              (pay13_at x0 (k0_pay2 v1) p q _ _
                (pay11_at x0 (k0_pay2 v1) p q _ _
                  (pay9_at x0 (k0_pay2 v1) p q _ _
                    (pay7_at x0 (k0_pay2 v1) p q _ _
                      (pay5_at x0 (k0_pay2 v1) p q _ _ (pay3_at x0 p q v1) (pay4_at x0 p q v1))
                      (pay6_at x0 (k0_pay2 v1) p q))
                    (pay8_at x0 (k0_pay2 v1) p q))
                  (pay10_at x0 (k0_pay2 v1) p q))
                (pay12_at x0 (k0_pay2 v1) p q))
              (pay14_at x0 (k0_pay2 v1) p q))
            (pay16_at x0 (k0_pay2 v1) p q))
          (pay18_at x0 (k0_pay2 v1) p q))
        (pay20_at x0 (k0_pay2 v1) p q))
      (pay22_at x0 (k0_pay2 v1) p q))
    (pay24_at x0 (k0_pay2 v1) p q)

end Cert.KernelIdeal.Body

end
-- ==== Proof.Spec.lean ====
/-
  The specification both programs meet: the fuzzy max–min product with the weight clipped to [0, 1].

  For `a : [1024, 512]` and `wt : [512, 256]`, entry `(b, o)` of the result is the maximum over `i < 512` of
  `min (a[b, i]) (clip (wt[i, o]))`, where `clip v = min 1 (max 0 v)`; the maximum is the fold of `max` from `-∞`. The
  three float literals are kept as the values of their words: the same words stand on both sides and are never evaluated.
  `entry` is stated for any extents, so that one definition serves a row block of `a` and the whole of it; a running
  maximum over all `K` terms (in the chunked form a kernel computes it) is `entry` (`upTo_eq_entry`).
-/
import proofs.«151114_j56281251447399_2_alg».proof.Proof.LibMaxChunks
import proofs.«151114_j56281251447399_2_alg».proof.Proof.LibMinMaxChunk

noncomputable section

namespace Cert.MinMax

open Idealize.ShloMosaic Idealize.ShloMosaic.ValueIdx Cert.MaxChunks Cert.MinMaxChunk

/-- Clipping to `[0, 1]`: `min 1 (max 0 v)`, the two bounds as the values of their f32 words. -/
def clip (v : EReal) : EReal := min (Ideal.ofBits .f32 0x3F800000#32) (max (Ideal.ofBits .f32 0x00000000#32) v)

/-- Entry `(p, q)` of the max–min product of `x : [A, K]` and `w : [K, B]`. -/
def entry {A K B : ℕ} (x : FVec Ideal ⟨2, ![A, K]⟩ .f32) (w : FVec Ideal ⟨2, ![K, B]⟩ .f32) (p : Fin A) (q : Fin B) : EReal :=
  (Finset.univ : Finset (Fin K)).fold max (Ideal.ofBits .f32 0xFF800000#32) (fun i => min (x (ix2 p i) : EReal) (w (ix2 i q)))

/-- The running maximum over all `K` terms of the product's entry is the entry. -/
theorem upTo_eq_entry {A K B : ℕ} (x : FVec Ideal ⟨2, ![A, K]⟩ .f32) (w : FVec Ideal ⟨2, ![K, B]⟩ .f32) (p : Fin A) (q : Fin B) :
    upTo (Ideal.ofBits .f32 0xFF800000#32) (term x w p q) K = entry x w p q := by
  rw [← fold_univ_eq_upTo]
  exact congrArg (fun f => (Finset.univ : Finset (Fin K)).fold max (Ideal.ofBits .f32 0xFF800000#32) f)
    (funext fun i => term_of_lt x w p q i)

/-- THE SPECIFICATION: the result array as one function of the two argument arrays, entry by entry. -/
def minmax (a : FVec Ideal ⟨2, ![1024, 512]⟩ .f32) (wt : FVec Ideal ⟨2, ![512, 256]⟩ .f32) : FVec Ideal ⟨2, ![1024, 256]⟩ .f32 :=
  fun j => entry a (fun i => clip (wt i)) ⟨(j 0).val, idx2_lt0 j⟩ ⟨(j 1).val, idx2_lt1 j⟩

/-- The specification at an index given by its coordinates. -/
theorem minmax_apply (a : FVec Ideal ⟨2, ![1024, 512]⟩ .f32) (wt : FVec Ideal ⟨2, ![512, 256]⟩ .f32) (p : Fin 1024) (q : Fin 256) :
    minmax a wt (ix2 p q) = entry a (fun i => clip (wt i)) p q := rfl

end Cert.MinMax

end
-- ==== Proof.ArrayValue.lean ====
/-
  From the kernel's blocks to its result array, at the ideal values.

  The grid has eight points. Point `t` is given rows `128 t … 128 t + 127` of the first argument, the whole of the second,
  and writes back rows `128 t … 128 t + 127` of the result. What it writes at `(p, q)` of its block is the max–min product
  of its row block and the clipped weight (the body's value), and row `p` of the block is row `128 t + p` of the argument:
  so it writes block `t` of the specification of the two argument arrays. The eight blocks tile the result array — row `r`
  lies in the block of point `r / 128` — hence after the run the result array is the specification.
-/
import proofs.«151114_j56281251447399_2_alg».proof.Proof.KernelValueBlocks
import proofs.«151114_j56281251447399_2_alg».proof.Proof.BodyValue
import proofs.«151114_j56281251447399_2_alg».proof.Proof.Spec
import Idealize.ShloMosaic.Lib.Pipeline.Value

noncomputable section

namespace Cert.KernelIdeal.Whole

open Cert.KernelIdeal Cert.KernelIdeal.Gen Cert.KernelIdeal.ValueP Cert.KernelIdeal.Body
open Idealize.ShloMosaic Idealize.ShloMosaic.TcCoe Idealize.SL.Sem Idealize.ShloMosaic.ValueIdx
open Idealize.ShloMosaic.Pipeline (Dat)
open Cert.MinMax

variable (m : (ℓ : Loc nD τ sig) → Buf (Elt Ideal) ℓ) (ρ : Dev nD → PrngReg)

theorem hz : (![0, 0] : Fin 2 → Nat) = fun _ => 0 := funext fun a => by fin_cases a <;> rfl

/-- WHAT THE BODY LEAVES IN THE OUTPUT BLOCK at `(p, q)`, from the two input blocks: the max–min product's entry of the row
    block and the clipped weight block. The one store covers the block, and the loads read the whole blocks. -/
theorem out_block_apply (x0 : FVec Ideal S128x512 .f32) (x1 : FVec Ideal S512x256 .f32) (p : Fin 128) (q : Fin 256) :
    out0_2 (F := Ideal) x0 x1 (ix2 p q) = entry x0 (k0_pay2 x1) p q := by
  unfold out0_2
  rw [View.canon_unit_zero hz]
  simp only [View.ld_unit_zero (S := S128x512) hz, View.ld_unit_zero (S := S512x256) hz]
  exact (body_at x0 p q x1).trans (upTo_eq_entry x0 (k0_pay2 x1) p q)

/-- The printed index maps over the eight points: the first argument's window and the result's move down one row block
    per point, the weight's stays, and none moves along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the first argument's block at point `t` is row `128 t + p` of the argument. -/
theorem iblk0_apply (c : Dev nD) (t : Fin cfg0.N) (x : S128x512.Idx) (k : S1024x512.Idx)
    (hk0 : (k 0).val = t.val * 128 + (x 0).val) (hk1 : (k 1).val = (x 1).val) :
    (iblk m c 0 t : Vec Ideal S128x512 .f32) x = (V m c main_arg0 : S1024x512.Idx → EReal) k := by
  obtain ⟨e0, e1, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 128 + 1 * (x 0).val = (k 0).val; rw [e0, hk0]; omega
  | ⟨1, _⟩ => show win0_0.index t (1 : Fin 2) * 512 + 1 * (x 1).val = (k 1).val; rw [e1, hk1]; omega

/-- The weight's block at every point is the whole weight array. -/
theorem iblk1_apply (c : Dev nD) (t : Fin cfg0.N) (x : S512x256.Idx) :
    (iblk m c 1 t : Vec Ideal S512x256 .f32) x = (V m c main_arg1 : S512x256.Idx → EReal) x := by
  obtain ⟨-, -, e2, e3, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 2) * 512 + 1 * (x 0).val = (x 0).val; rw [e2]; omega
  | ⟨1, _⟩ => show win0_1.index t (1 : Fin 2) * 256 + 1 * (x 1).val = (x 1).val; rw [e3]; omega

/-- Entry `y` of the block point `t` computes is the specification, of the argument arrays, at row `128 t + y₀` and
    column `y₁`: term by term the row block reads the argument's row and the clipped weight block the clipped weight. -/
theorem block_entry (c : Dev nD) (t : Fin cfg0.N) (y : S128x256.Idx) (k : S1024x256.Idx)
    (hk0 : (k 0).val = t.val * 128 + (y 0).val) (hk1 : (k 1).val = (y 1).val) :
    out0_2 (F := Ideal) (iblk m c 0 t) (iblk m c 1 t) y = minmax (V m c main_arg0) (V m c main_arg1) k := by
  obtain ⟨p, q, rfl⟩ : ∃ (p : Fin 128) (q : Fin 256), y = ix2 p q := ⟨y 0, y 1, eq_ix2 y⟩
  obtain ⟨P, Q, rfl⟩ : ∃ (P : Fin 1024) (Q : Fin 256), k = ix2 P Q := ⟨k 0, k 1, eq_ix2 k⟩
  obtain rfl : Q = q := Fin.ext hk1
  rw [out_block_apply, minmax_apply]
  unfold entry
  refine congrArg (fun f => (Finset.univ : Finset (Fin 512)).fold max (Ideal.ofBits .f32 0xFF800000#32) f) (funext fun i => ?_)
  exact congrArg₂ min (iblk0_apply m c t (ix2 p i) (ix2 P i) hk0 rfl) (congrArg clip (iblk1_apply m c t (ix2 i Q)))

/-- WHAT POINT `t` WRITES BACK is block `t` of the specification of the argument arrays as the region finds them. -/
theorem flushed_eq (c : Dev nD) (t : Fin cfg0.N) :
    (dats m 0 c).flushed 2 t
      = ((cfg0.win 2).blk t).view.read (Elt Ideal) (minmax (V m c main_arg0) (V m c main_arg1)) := by
  rw [flushed2]
  obtain ⟨-, -, -, -, e4, e5⟩ := idx_facts t
  funext j
  show out0_2 (F := Ideal) (iblk m c 0 t) (iblk m c 1 t) j
    = minmax (V m c main_arg0) (V m c main_arg1) (((cfg0.win 2).blk t).view.emb j)
  refine block_entry m c t j _ ?_ ?_
  · show win0_2.index t (0 : Fin 2) * 128 + 1 * (j 0).val = t.val * 128 + (j 0).val
    rw [e4]; omega
  · show win0_2.index t (1 : Fin 2) * 256 + 1 * (j 1).val = (j 1).val
    rw [e5]; omega

/-- An index of the result array is in point `t`'s block iff each coordinate is in the block's range on its axis. -/
theorem mem_blk (t : Fin cfg0.N) (i : S1024x256.Idx) :
    i ∈ ((cfg0.win 2).blk t).view.set ↔ ∀ a : Fin 2, win0_2.index t a * S128x256.size a ≤ (i a).val
      ∧ (i a).val < win0_2.index t a * S128x256.size a + S128x256.size a := by
  show i ∈ ((View.whole main_v0).slice (win0_2.rect t)).set ↔ _
  rw [View.set_slice_whole, Rect.mem_set_unit]
  exact Iff.rfl

/-- THE RESULT ARRAY after the run is the specification of the argument arrays: every point writes its block of it, and
    row `r` is covered by the point `r / 128`. -/
theorem final (c : Dev nD) : (dats m 0 c).arrAt 2 cfg0.N = minmax (V m c main_arg0) (V m c main_arg1) :=
  (dats m 0 c).arrAt_eq_of_cover 2 (minmax (V m c main_arg0) (V m c main_arg1)) (fun t _ => flushed_eq m c t) fun i => by
    have hi0 : ((i : S1024x256.Idx) 0).val < 1024 := ((i : S1024x256.Idx) 0).isLt
    have hi1 : ((i : S1024x256.Idx) 1).val < 256 := ((i : S1024x256.Idx) 1).isLt
    have hN : cfg0.N = 8 := N_0
    have ht : ((i : S1024x256.Idx) 0).val / 128 < cfg0.N := by rw [hN]; omega
    obtain ⟨-, -, -, -, e4, e5⟩ := idx_facts ⟨((i : S1024x256.Idx) 0).val / 128, ht⟩
    refine ⟨⟨((i : S1024x256.Idx) 0).val / 128, ht⟩, flush0_2 _, ?_⟩
    rw [mem_blk]
    intro a
    match a with
    | ⟨0, _⟩ =>
      show win0_2.index ⟨((i : S1024x256.Idx) 0).val / 128, ht⟩ (0 : Fin 2) * 128 ≤ ((i : S1024x256.Idx) 0).val
        ∧ ((i : S1024x256.Idx) 0).val < win0_2.index ⟨((i : S1024x256.Idx) 0).val / 128, ht⟩ (0 : Fin 2) * 128 + 128
      rw [e4]; show ((i : S1024x256.Idx) 0).val / 128 * 128 ≤ _ ∧ _ < ((i : S1024x256.Idx) 0).val / 128 * 128 + 128; omega
    | ⟨1, _⟩ =>
      show win0_2.index ⟨((i : S1024x256.Idx) 0).val / 128, ht⟩ (1 : Fin 2) * 256 ≤ ((i : S1024x256.Idx) 1).val
        ∧ ((i : S1024x256.Idx) 1).val < win0_2.index ⟨((i : S1024x256.Idx) 0).val / 128, ht⟩ (1 : Fin 2) * 256 + 256
      rw [e5]; omega

/-- THE KERNEL'S RUN, READ: every weakly fair execution terminates with the result array at the specification of the
    argument arrays as launched, and the arguments unchanged. -/
theorem run : θ_run defs (onTc (τ := τ) (main (F := Ideal))) ⟨m, fun _ => 0, ρ⟩ fun r => ∀ c : Dev nD,
      r.2.mem ((c : Thread nD τ).loc main_v0)
        = minmax (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefValue.lean ====
/-
  The reference computes the specification.

  Its last operation reduces, by `max` from `-∞` over the middle axis, the `[1024, 512, 256]` array of
  `min (a[b, i]) (w'[i, o])`, where `w' = min 1 (max 0 wt)` is the clipped weight broadcast along the first axis and `a`
  is broadcast along the last. A reduction over one axis by a commutative and associative operation is the fold over that
  axis's coordinates, so entry `(b, o)` is the fold of `max` over `i` of the array at `(b, i, o)`; the broadcasts read
  `a` at `(b, i)` and `w'` at `(i, o)`. That is the specification's entry.
-/
import proofs.«151114_j56281251447399_2_alg».proof.Proof.Gen.ReferenceIdeal.Read
import proofs.«151114_j56281251447399_2_alg».proof.Proof.Spec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.MinMax

/-- The reduced shape fact in the form that names the inserted coordinate. -/
theorem reduces_mid : S1024x512x256.Reduces [1] S1024x256 := by decide

/-- The reference's array of minima at `(b, i, o)`: `min (a[b, i]) (clip (wt[i, o]))`. -/
theorem minima_apply (x0 : FVec Ideal S1024x512 .f32) (x1 : FVec Ideal S512x256 .f32) (p : Fin 1024) (k : Fin 512) (q : Fin 256) :
    val_main_v5 (F := Ideal) x0 x1 (ix3 p k q) = min (x0 (ix2 p k) : EReal) (clip (x1 (ix2 k q))) := by
  have e1 : idx_main_v1 (idx_main_v3 (ix3 p k q)) = ix2 p k :=
    funext fun a => Fin.ext (by match a with | ⟨0, _⟩ => rfl | ⟨1, _⟩ => rfl)
  have e2 : idx_main_v2 (idx_main_v4 (ix3 p k q)) = ix2 k q :=
    funext fun a => Fin.ext (by match a with | ⟨0, _⟩ => rfl | ⟨1, _⟩ => rfl)
  rw [val_main_v5_apply, val_main_v3_apply, val_main_v1_apply, val_main_v4_apply, val_main_v2_apply, val_main_v0_apply,
    val_main_call0_v4_apply, val_main_call0_v3_apply, val_main_cst_0_apply, val_main_call0_v2_apply, val_main_call0_v1_apply,
    val_main_call0_v0_apply, val_main_cst_apply, e1, e2]
  rfl

/-- The host's `max`-reduction of a `[1024, 512, 256]` array over its middle axis, from the seed `-∞`, reads at `(b, o)` the
    fold of `max` from that seed over the middle coordinate `i` of the array at `(b, i, o)`. -/
theorem reduce_apply (T : FVec Ideal S1024x512x256 .f32) (p : Fin 1024) (q : Fin 256) :
    Host.reduce FloatOps.maximumf T (val_main_cst_1 (F := Ideal)) reducesTo_S1024x512x256_S1024x256_d1 h_S_ (ix2 p q)
      = (Finset.univ : Finset (Fin 512)).fold max (Ideal.ofBits .f32 0xFF800000#32) (fun k => T (ix3 p k q)) := by
  have h := Host.reduce_eq_fold_single (s := S1024x512x256) (t := S1024x256) (a := (1 : Fin 3)) (u := S_)
    (FloatOps.maximumf (F := Ideal) (φ := .f32)) T (val_main_cst_1 (F := Ideal)) reducesTo_S1024x512x256_S1024x256_d1
    reduces_mid h_S_ (ix2 p q)
  refine h.trans ?_
  refine congrArg (fun f => (Finset.univ : Finset (Fin 512)).fold max (Ideal.ofBits .f32 0xFF800000#32) f)
    (funext fun k => congrArg T ?_)
  funext a
  apply Fin.ext
  match a with
  | ⟨0, _⟩ => rfl
  | ⟨1, _⟩ => rfl
  | ⟨2, _⟩ => rfl

/-- THE REFERENCE'S RESULT IS THE SPECIFICATION. -/
theorem result_eq (x0 : FVec Ideal S1024x512 .f32) (x1 : FVec Ideal S512x256 .f32) :
    val_main_v6 (F := Ideal) x0 x1 = minmax x0 x1 := by
  funext j
  obtain ⟨p, q, rfl⟩ : ∃ (p : Fin 1024) (q : Fin 256), j = ix2 p q := ⟨j 0, j 1, eq_ix2 j⟩
  rw [minmax_apply]
  unfold val_main_v6
  rw [reduce_apply]
  unfold entry
  exact congrArg (fun f => (Finset.univ : Finset (Fin 512)).fold max (Ideal.ofBits .f32 0xFF800000#32) f)
    (funext fun k => minima_apply x0 x1 p k q)

end Cert.ReferenceIdeal.RefValue

end
-- ==== Proof.lean ====
/-
  The kernel computes a fuzzy max–min ("tropical") matrix product: with `w' = min 1 (max 0 weight)`,

      out[b, o] = max over i < 512 of min (m[b, i]) (w'[i, o]),        b < 1024, o < 256,

  every maximum taken from `-∞`. The reference forms the `[1024, 512, 256]` array of the minima and reduces its middle axis
  once. The kernel works on eight row blocks of 128 rows; in a block it cuts the 512 terms into 64 chunks of eight, reduces
  each chunk on its own and keeps a running maximum of the chunks' results.

  At the ideal values `max` and `min` are the lattice operations of the extended reals. A running maximum taken in chunks is
  the maximum over all terms, because `max` is associative, commutative and idempotent (Proof/LibMaxChunks.lean); each chunk,
  read at an entry, is the maximum of its eight terms (Proof/LibMinMaxChunk.lean); so the kernel body leaves in its output
  block the product of its row block and the clipped weight (Proof/BodyValue.lean), the eight blocks tile the result array
  (Proof/ArrayValue.lean), and the reference's reduction over one axis is the same fold over that axis's coordinates
  (Proof/RefValue.lean). Both programs therefore end with the one function `Cert.MinMax.minmax` of the argument arrays
  (Proof/Spec.lean). No law used needs finiteness, so the precondition is never opened; the three float literals (0, 1 and
  `-∞`) stand as the same words on both sides and are never evaluated. The ideal pass rewrote nothing, so `preserves` is
  `True`; the three frames are the generated frame runs (the reference's is its generated run with the result dropped).
-/
import proofs.«151114_j56281251447399_2_alg».proof.Defs
import proofs.«151114_j56281251447399_2_alg».proof.Proof.Gen.Kernel
import proofs.«151114_j56281251447399_2_alg».proof.Proof.Gen.Kernel.Frame
import proofs.«151114_j56281251447399_2_alg».proof.Proof.Gen.KernelIdeal
import proofs.«151114_j56281251447399_2_alg».proof.Proof.Gen.KernelIdeal.Frame
import proofs.«151114_j56281251447399_2_alg».proof.Proof.Gen.ReferenceIdeal
import proofs.«151114_j56281251447399_2_alg».proof.Proof.Gen.Pre_finite_inputs
import proofs.«151114_j56281251447399_2_alg».proof.Proof.Gen.ReferenceIdeal.Run
import proofs.«151114_j56281251447399_2_alg».proof.Proof.Gen.ReferenceIdeal.Read
import proofs.«151114_j56281251447399_2_alg».proof.Proof.ArrayValue
import proofs.«151114_j56281251447399_2_alg».proof.Proof.RefValue

noncomputable section

namespace Cert.Proof

open Idealize.ShloMosaic Idealize.ShloMosaic.TcCoe Idealize.SL.Sem

/-- The printed kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the arguments, the idealized kernel's result array and the idealized reference's both end at
    the max–min product, with the clipped weight, of the argument arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
